-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S8192x1 : Shape := ⟨2, ![8192, 1]⟩
abbrev S256x4096 : Shape := ⟨2, ![256, 4096]⟩
abbrev S256x1 : Shape := ⟨2, ![256, 1]⟩
abbrev S256 : Shape := ⟨1, ![256]⟩
abbrev S_ : Shape := ⟨0, ![]⟩
abbrev S1x1 : Shape := ⟨2, ![1, 1]⟩
abbrev S512x4096 : Shape := ⟨2, ![512, 4096]⟩
abbrev S1024x4096 : Shape := ⟨2, ![1024, 4096]⟩
abbrev S512x1 : Shape := ⟨2, ![512, 1]⟩
abbrev S512x1024 : Shape := ⟨2, ![512, 1024]⟩

abbrev nBuf : Space → Nat
  | .hbm => 21
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S8192x4096, .bf16⟩
  | .hbm, ⟨4, _⟩ => ⟨S8192x1, .f32⟩
  | .hbm, ⟨5, _⟩ => ⟨S4096x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S4096x4096, .bf16⟩
  | .hbm, ⟨17, _⟩ => ⟨S8192x1, .f32⟩
  | .hbm, ⟨18, _⟩ => ⟨S8192x1, .f32⟩
  | .hbm, ⟨19, _⟩ => ⟨S8192x4096, .f32⟩
  | .hbm, ⟨20, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x1, .f32⟩
  | .local _ .vmem, ⟨5, _⟩ => ⟨S256x1, .f32⟩
  | .local _ .vmem, ⟨6, _⟩ => ⟨S256x4096, .f32⟩
  | .local _ .vmem, ⟨7, _⟩ => ⟨S256x4096, .f32⟩
  | .local _ .vmem, ⟨8, _⟩ => ⟨S1x1, .f32⟩
  | .local _ .vmem, ⟨9, _⟩ => ⟨S256x4096, .bf16⟩
  | .local _ .vmem, ⟨10, _⟩ => ⟨S256x4096, .bf16⟩
  | .local _ .vmem, ⟨11, _⟩ => ⟨S512x4096, .bf16⟩
  | .local _ .vmem, ⟨12, _⟩ => ⟨S512x4096, .bf16⟩
  | .local _ .vmem, ⟨13, _⟩ => ⟨S1024x4096, .bf16⟩
  | .local _ .vmem, ⟨14, _⟩ => ⟨S1024x4096, .bf16⟩
  | .local _ .vmem, ⟨15, _⟩ => ⟨S512x1, .f32⟩
  | .local _ .vmem, ⟨16, _⟩ => ⟨S512x1, .f32⟩
  | .local _ .vmem, ⟨17, _⟩ => ⟨S512x1024, .f32⟩
  | .local _ .vmem, ⟨18, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_call0_v0 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  reducesTo_S4096x4096_S_d0_1 : S4096x4096.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  bcast_S_S8192x1 : S_.BroadcastsInDim S8192x1 (![] : Fin 0 → Fin S8192x1.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  shapeCasts_S8192x4096_S4x2048x4096 : S8192x4096.ShapeCasts S4x2048x4096
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .bf16 = 32 ∨ (Rect.block (s := S8192x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .bf16 = 32 ∨ (Rect.block (s := S4096x4096) S256x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S8192x4096.size a
  hwx2_0 : ∀ i : grid2.Coords, EltTy.bits .bf16 = 32 ∨ (Rect.block (s := S8192x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S4096x4096.size a
  hwx2_1 : ∀ i : grid2.Coords, EltTy.bits .bf16 = 32 ∨ (Rect.block (s := S4096x4096) S1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x4096.size a
  hwx2_3 : ∀ i : grid2.Coords, EltTy.bits .f32 = 32 ∨ (Rect.block (s := S8192x4096) S512x1024.size (cc2_transform_3 i) (hinb2_3 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S256x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1_0) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S_, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4096x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_call3_v0 : Ref sig .tc := ⟨.hbm, 32, rfl⟩
abbrev main_v15 : Ref sig .tc := ⟨.hbm, 33, rfl⟩
abbrev main_cst_7 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_8 : Ref sig .tc := ⟨.hbm, 39, rfl⟩
abbrev main_cst_9 : Ref sig .tc := ⟨.hbm, 40, rfl⟩
abbrev main_call5_v0 : Ref sig .tc := ⟨.hbm, 41, rfl⟩
abbrev main_call5_v1 : Ref sig .tc := ⟨.hbm, 42, rfl⟩
abbrev main_call5_v2 : Ref sig .tc := ⟨.hbm, 43, rfl⟩
abbrev main_call5_v3 : Ref sig .tc := ⟨.hbm, 44, rfl⟩
abbrev main_call5_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  reducesTo_S4096x4096_S_d0_1 : S4096x4096.ReducesTo [0, 1] S_
  bcast_S_S4096x4096 : S_.BroadcastsInDim S4096x4096 (![] : Fin 0 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KRun.lean ====
/-
  The idealized kernel's run with its RESULT array named. The program is three kernel regions among stretches of host
  operations; the contents of every buffer at each boundary are a fold through the program from the launch memory
  (`W0` … `W9` of the generated frame module). Here the launch over those segments is taken once more with the final
  state read at the result buffer as well as at the arguments: every weakly fair execution terminates, nothing
  faulting, the result array holding the last fold's contents there and the argument arrays unchanged.
-/
import proofs.«118460_j24962349924854_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the three regions and the host stretches between them, read at the result buffer: it ends holding
    the last boundary's contents (`W9`), and the two arguments end as launched. -/
theorem run_result : θ_run defs (onTc (τ := τ) (main (F := F))) ⟨m, fun _ => 0, ρ⟩ (fun r => ∀ c : Dev nD,
      r.2.mem ((c.tc : Thread nD τ).loc main_v12) = W9 m ρ c (Proc.devRef .tc main_v12)
      ∧       r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v12 (by decide)),
       (h c _ (mem_uc main_arg0 (by decide))).trans (W9_main_arg0 m ρ c),
       (h c _ (mem_uc main_arg1 (by decide))).trans (W9_main_arg1 m ρ c)⟩)

end Cert.KernelIdeal.Hand

end
-- ==== Proof.Spec.lean ====
/-
  The arithmetic of a BitLinear layer on the extended reals, row by row: what both programs compute at one
  output element, as functions of one activation row `xr` (4096 entries), one weight row `wr` (4096 entries)
  and the weight scale `mw` (the clipped mean of all |w|).

  * the row's scale is `c = max ε (max_k |xr k|)`, the quantised entry `q k = clip (rne (xr k · (127 / c))) (−128) 127`;
  * the ternary weight is `t k = clip (rne (wr k · (1 / mw))) (−1) 1`;
  * the kernel returns `(∑ k, q k · t k) · ((c / 127) · mw)` — the integer dot product, then ONE dequantising factor;
  * the reference returns `(∑ k, (q k / (127 / c)) · t k) / (1 / mw)` — each entry dequantised first, the weight scale
    divided out at the end.
  The literals stay the bit patterns both programs spell; only their few arithmetic facts are ever needed
  (Proof/Consts.lean).
-/
import Idealize.ShloMosaic.PureOps.Ideal

noncomputable section

namespace Cert.BitLinear

open Idealize.ShloMosaic

/-- The floor of both scales: the f32 nearest to 1e-5, a positive real. -/
abbrev eps : EReal := Ideal.ofBits .f32 0x3727C5AC#32
/-- 127, the top of the activation range (and the numerator of the activation scale). -/
abbrev qhi : EReal := Ideal.ofBits .f32 0x42FE0000#32
/-- −128, the bottom of the activation range. -/
abbrev qlo : EReal := Ideal.ofBits .f32 0xC3000000#32
/-- 1, the top of the ternary range (and the numerator of the weight scale's reciprocal). -/
abbrev tHi : EReal := Ideal.ofBits .f32 0x3F800000#32
/-- −1, the bottom of the ternary range. -/
abbrev tLo : EReal := Ideal.ofBits .f32 0xBF800000#32
/-- −∞, where a row's maximum starts. -/
abbrev negInf : EReal := Ideal.ofBits .f32 0xFF800000#32
/-- 2^24 = 4096 · 4096, the number of weights the mean divides by. -/
abbrev count : EReal := Ideal.ofBits .f32 0x4B800000#32
/-- +0, where the sum of |w| starts. -/
abbrev zero : EReal := Ideal.ofBits .f32 0x00000000#32

/-- Round to the nearest integer, ties to even (the infinities fixed). -/
def rne (z : EReal) : EReal := Ideal.liftRound Ideal.roundHalfEven z

/-- The largest absolute value of a row, as the fold of `max` from −∞. -/
def rowAbsMax (xr : Fin 4096 → EReal) : EReal :=
  (Finset.univ : Finset (Fin 4096)).fold max negInf (fun k => max (xr k) (-(xr k)))

/-- A row's scale: its largest absolute value, floored at ε. -/
def rowScale (xr : Fin 4096 → EReal) : EReal := max eps (rowAbsMax xr)

/-- A row's quantised entry: the entry times 127 / scale, rounded, clipped to [−128, 127]. -/
def quant (xr : Fin 4096 → EReal) (k : Fin 4096) : EReal :=
  min qhi (max qlo (rne (xr k * Ideal.div qhi (rowScale xr))))

/-- The scale the kernel stores beside a quantised row: scale / 127. -/
def rowInvScale (xr : Fin 4096 → EReal) : EReal := Ideal.div (rowScale xr) qhi

/-- The weight scale from the sum `s` of all |w| (the sum as it is accumulated from +0): the mean, floored at ε. -/
def wScale (s : EReal) : EReal := max eps (Ideal.div s count)

/-- A weight times a factor `f`, rounded, clipped to [−1, 1]. -/
def ternBy (wv f : EReal) : EReal := min tHi (max tLo (rne (wv * f)))

/-- The ternary weight under the weight scale `mw`: the factor is 1 / mw. -/
def tern (wv mw : EReal) : EReal := ternBy wv (Ideal.div tHi mw)

/-- The kernel's output element: the dot product of the quantised row and the ternary row, times (scale/127) · mw. -/
def kernelOut (xr wr : Fin 4096 → EReal) (mw : EReal) : EReal :=
  (∑ k : Fin 4096, quant xr k * tern (wr k) mw) * (rowInvScale xr * mw)

/-- The reference's output element: each quantised entry divided by 127/scale before the dot product, the result
    divided by 1 / mw. -/
def refOut (xr wr : Fin 4096 → EReal) (mw : EReal) : EReal :=
  Ideal.div (∑ k : Fin 4096, Ideal.div (quant xr k) (Ideal.div qhi (rowScale xr)) * tern (wr k) mw) (Ideal.div tHi mw)

end Cert.BitLinear

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.Region0.lean ====
/-
  The first kernel region (the activation quantiser) as whole-array functions of the array it finds on entry: each
  row's scale is its largest absolute value floored at ε; the first output holds every entry times 127 / scale,
  rounded and clipped to [−128, 127]; the second output holds, per row, scale / 127.
-/
import proofs.«118460_j24962349924854_2_alg».proof.Proof.Gen.KernelIdeal.Frame
import proofs.«118460_j24962349924854_2_alg».proof.Proof.Spec
import proofs.«118460_j24962349924854_2_alg».proof.Proof.LibKeepdims
import proofs.«118460_j24962349924854_2_alg».proof.Proof.LibMinReduce
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.BitLinear (rowScale rowAbsMax rowInvScale quant rne eps qhi qlo negInf)

/-- Row p of a block, as a function of the column. -/
abbrev blockRow (x : Vec Ideal S256x4096 .f32) (p : Fin 256) : Fin 4096 → EReal := fun k => x (ix2 p k)

/-- The lane reduction of the absolute values along a block's columns, at row p: the row's largest absolute value. -/
theorem rowMax_apply (x : Vec Ideal S256x4096 .f32) (p : Fin 256) :
    multiReduction (F := Ideal) .maximumf [1] S256 (absf (F := Ideal) x) 0xFF800000#32 reduces_S256x4096_S256 (.inl rfl) rfl (ix1 p)
      = rowAbsMax (blockRow x p) := by
  refine (Ideal.multiReduction_maximumf_single _ _ _ _ _ (ix1 p)).trans ?_
  unfold rowAbsMax
  refine congrArg (fun f : Fin 4096 → EReal => Finset.fold max negInf f Finset.univ) (funext fun k : Fin 4096 => ?_)
  exact congrArg (fun i => max (x i) (-(x i))) (Cert.MinReduce.lift_cols reduces_S256x4096_S256 p k)

/-- A pointwise rounding read at an index. -/
theorem roundeven_apply {s : Shape} {φ : FTy} (a : FVec Ideal s φ) (i : s.Idx) :
    roundeven a i = Ideal.liftRound Ideal.roundHalfEven (a i) := rfl

/-- The body's clipped row maximum, at row p of the column it is kept in. -/
theorem pay0_scale (x : Vec Ideal S256x4096 .f32) (p : Fin 256) (u : Fin 1) :
    k0_pay2 x (ix2 p u) = rowScale (blockRow x p) := by
  unfold k0_pay2 k0_pay1
  try dsimp only
  rw [shapeCast_self, maximumf_apply, broadcast_apply, Cert.Keepdims.shapeCast_a_a1_apply, rowMax_apply]
  rfl

/-- The scale the body stores beside a row: the clipped maximum over 127. -/
theorem pay0_inv (x : Vec Ideal S256x4096 .f32) (p : Fin 256) (u : Fin 1) :
    k0_pay3 x (ix2 p u) = rowInvScale (blockRow x p) := by
  unfold k0_pay3
  try dsimp only
  rw [divf_apply, broadcast_apply, pay0_scale]
  rfl

/-- The quantised entry the body stores at row p, column k. -/
theorem pay0_q (x : Vec Ideal S256x4096 .f32) (p : Fin 256) (k : Fin 4096) :
    k0_pay4 x (ix2 p k) = quant (blockRow x p) k := by
  unfold k0_pay4 k0_pay1
  try dsimp only
  rw [shapeCast_self, truncf_apply, minimumf_apply, broadcast_apply, maximumf_apply, broadcast_apply, roundeven_apply,
    mulf_apply, Cert.Keepdims.broadcastTo_a1_ab_apply, divf_apply, broadcast_apply, pay0_scale]
  rfl

/-! ## From blocks to the arrays -/

variable (V : (c : Dev nD) → (b : Ref sig .tc) → Buf (Elt Ideal) ((c : Thread nD τ).loc b))

theorem zeroOff0 : (![0, 0] : Fin 2 → Nat) = fun _ => 0 := funext fun a => by fin_cases a <;> rfl

/-- Row r of the activations array, as a function of the column. -/
abbrev arrRow (x : S8192x4096.Idx → EReal) (r : Fin 8192) : Fin 4096 → EReal := fun k => x (ix2 r k)

/-- The quantised array as one function of the activations: each entry quantised within its row. -/
def quantArr (x : S8192x4096.Idx → EReal) : S8192x4096.Idx → EReal :=
  fun j => quant (arrRow x ⟨(j 0).val, (j 0).isLt⟩) ⟨(j 1).val, (j 1).isLt⟩

/-- The scale column as one function of the activations: per row, scale / 127. -/
def invScaleArr (x : S8192x4096.Idx → EReal) : S8192x1.Idx → EReal :=
  fun j => rowInvScale (arrRow x ⟨(j 0).val, (j 0).isLt⟩)

/-- The printed index maps over the 32 points: all three windows sit at row block t, column block 0. -/
theorem idx_facts0 : ∀ t : Fin cfg0.N,
    win0_0.index t (0 : Fin 2) = win0_1.index t (0 : Fin 2) ∧ win0_0.index t (1 : Fin 2) = 0
    ∧ win0_1.index t (1 : Fin 2) = 0
    ∧ win0_2.index t (0 : Fin 2) = win0_1.index t (0 : Fin 2) ∧ win0_2.index t (1 : Fin 2) = 0
    ∧ win0_1.index t (0 : Fin 2) ≤ 31 :=
  (by decide +kernel : ∀ t : Fin grid0.N, _)

/-- Every row block is some point's, for both outputs. -/
theorem idx_onto0 : ∀ (q0 : Fin 32), ∃ t : Fin cfg0.N, win0_1.index t = ![q0.val, 0] ∧ win0_2.index t = ![q0.val, 0] :=
  (by decide +kernel : ∀ (q0 : Fin 32), ∃ t : Fin grid0.N, win0_1.index t = ![q0.val, 0] ∧ win0_2.index t = ![q0.val, 0])

/-- A block of the activations at a point, read at (p, k): the array at row (block index · 256 + p), column k. -/
theorem iblk0_0_apply (c : Dev nD) (t : Fin cfg0.N) (p : Fin 256) (k : Fin 4096) (i : S8192x4096.Idx)
    (h0 : (i 0).val = win0_0.index t (0 : Fin 2) * 256 + p.val) (h1 : (i 1).val = win0_0.index t (1 : Fin 2) * 4096 + k.val) :
    (iblk0 V c 0 t : Vec Ideal S256x4096 .f32) (ix2 p k) = (V c main_v0 : S8192x4096.Idx → EReal) i := by
  unfold iblk0
  rw [View.read_apply]
  show V c main_v0 _ = V c main_v0 _
  congr 1
  funext a
  apply Fin.ext
  match a with
  | ⟨0, _⟩ => show win0_0.index t (0 : Fin 2) * 256 + 1 * p.val = (i 0).val; omega
  | ⟨1, _⟩ => show win0_0.index t (1 : Fin 2) * 4096 + 1 * k.val = (i 1).val; omega

/-- Row p of the block at a point is row (block index · 256 + p) of the array. -/
theorem blockRow_eq (c : Dev nD) (t : Fin cfg0.N) (p : Fin 256) (r : Fin 8192)
    (hr : r.val = win0_0.index t (0 : Fin 2) * 256 + p.val) (hz : win0_0.index t (1 : Fin 2) = 0) :
    blockRow (iblk0 V c 0 t) p = arrRow (V c main_v0) r :=
  funext fun k => iblk0_0_apply V c t p k (ix2 r k) hr (by show k.val = _; rw [hz]; omega)

/-- What a point writes back to the first output is its block of the quantised array. -/
theorem flushed0_1_eq (c : Dev nD) (t : Fin cfg0.N) :
    (dat0 (F := Ideal) V c).flushed 1 t
      = ((cfg0.win 1).blk t).view.read (Elt Ideal) (quantArr (V c main_v0)) := by
  show (cfg0.win 1).cut (grid0.coords t) ((dat0 V c).after 1 t) = _
  rw [after0_1]
  unfold out0_1
  rw [View.canon_unit_zero zeroOff0]
  simp only [View.ld_unit_zero (S := S256x4096) zeroOff0]
  obtain ⟨e0, e1, e2, e3, e4, e5⟩ := idx_facts0 t
  funext y
  obtain ⟨p, k, rfl⟩ : ∃ (p : Fin 256) (k : Fin 4096), y = ix2 p k := ⟨y 0, y 1, eq_ix2 y⟩
  show k0_pay4 (iblk0 V c 0 t) (ix2 p k) = quantArr (V c main_v0) (((cfg0.win 1).blk t).view.emb (ix2 p k))
  refine (pay0_q _ p k).trans ?_
  unfold quantArr
  refine congrArg₂ quant (blockRow_eq V c t p _ ?_ e1) (Fin.ext ?_)
  · show win0_1.index t (0 : Fin 2) * 256 + 1 * p.val = win0_0.index t (0 : Fin 2) * 256 + p.val; rw [e0]; omega
  · show k.val = win0_1.index t (1 : Fin 2) * 4096 + 1 * k.val; rw [e2]; omega

/-- What a point writes back to the second output is its block of the scale column. -/
theorem flushed0_2_eq (c : Dev nD) (t : Fin cfg0.N) :
    (dat0 (F := Ideal) V c).flushed 2 t
      = ((cfg0.win 2).blk t).view.read (Elt Ideal) (invScaleArr (V c main_v0)) := by
  show (cfg0.win 2).cut (grid0.coords t) ((dat0 V c).after 2 t) = _
  rw [after0_2]
  unfold out0_2
  rw [View.canon_unit_zero zeroOff0]
  simp only [View.ld_unit_zero (S := S256x4096) zeroOff0]
  obtain ⟨e0, e1, e2, e3, e4, e5⟩ := idx_facts0 t
  funext y
  obtain ⟨p, u, rfl⟩ : ∃ (p : Fin 256) (u : Fin 1), y = ix2 p u := ⟨y 0, y 1, eq_ix2 y⟩
  show k0_pay3 (iblk0 V c 0 t) (ix2 p u) = invScaleArr (V c main_v0) (((cfg0.win 2).blk t).view.emb (ix2 p u))
  refine (pay0_inv _ p u).trans ?_
  unfold invScaleArr
  refine congrArg rowInvScale (blockRow_eq V c t p _ ?_ e1)
  show win0_2.index t (0 : Fin 2) * 256 + 1 * p.val = win0_0.index t (0 : Fin 2) * 256 + p.val; rw [e3, e0]; omega

/-- An index is in a point's block of the first output iff each coordinate is in the block's range. -/
theorem mem_blk0_1 (t : Fin cfg0.N) (i : S8192x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v1_0).slice (win0_1.rect t)).set ↔ _
  rw [View.set_slice_whole, Rect.mem_set_unit]
  exact Iff.rfl

/-- The same for the second output. -/
theorem mem_blk0_2 (t : Fin cfg0.N) (i : S8192x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v1_1).slice (win0_2.rect t)).set ↔ _
  rw [View.set_slice_whole, Rect.mem_set_unit]
  exact Iff.rfl

/-- The first output's blocks tile it: row r is in block r / 256. -/
theorem cover0_1' (i : S8192x4096.Idx) : ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht, -⟩ := idx_onto0 ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk0_1]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- The second output's blocks tile it. -/
theorem cover0_2' (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, -, ht⟩ := idx_onto0 ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1 ≤ (i 1).val ∧ (i 1).val < win0_2.index t (1 : Fin 2) * 1 + 1; omega

/-- The first output after the last point: the quantised array of the array the region found. -/
theorem final0_1 (c : Dev nD) : (dat0 (F := Ideal) V c).arrAt 1 cfg0.N = quantArr (V c main_v0) :=
  (dat0 V c).arrAt_eq_of_cover 1 _ (fun t _ => flushed0_1_eq V c t) cover0_1'

/-- The second output after the last point: the scale column of the array the region found. -/
theorem final0_2 (c : Dev nD) : (dat0 (F := Ideal) V c).arrAt 2 cfg0.N = invScaleArr (V c main_v0) :=
  (dat0 V c).arrAt_eq_of_cover 2 _ (fun t _ => flushed0_2_eq V c t) cover0_2'

end Cert.KernelIdeal.Hand

end
-- ==== Proof.Region1.lean ====
/-
  The second kernel region (the ternariser) as one whole-array function of the arrays it finds on entry: every weight
  times the one-entry factor array, rounded, clipped to [−1, 1].
-/
import proofs.«118460_j24962349924854_2_alg».proof.Proof.Gen.KernelIdeal.Frame
import proofs.«118460_j24962349924854_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.BitLinear (ternBy)

/-- The one entry of a [1, 1] array, however its index is spelt. -/
theorem extract_one (x1 : Vec Ideal S1x1 .f32) : extractAt ![0, 0] x1 inpos_S1x1_p0_0 = x1 (ix2 (0 : Fin 1) (0 : Fin 1)) := by
  unfold extractAt
  congr 1
  funext a
  apply Fin.ext
  match a with
  | ⟨0, _⟩ => rfl
  | ⟨1, _⟩ => rfl

/-- The body's stored value at an index of its block: the weight there times the factor, rounded, clipped. -/
theorem pay1_apply (x0 : Vec Ideal S256x4096 .f32) (x1 : Vec Ideal S1x1 .f32) (j : S256x4096.Idx) :
    k1_pay1 x0 x1 j = ternBy (x0 j) (x1 (ix2 (0 : Fin 1) (0 : Fin 1))) := by
  unfold k1_pay1 ternBy Cert.BitLinear.rne
  show min (Ideal.ofBits .f32 0x3F800000#32) (max (Ideal.ofBits .f32 0xBF800000#32)
      (Ideal.liftRound Ideal.roundHalfEven (x0 j * extractAt ![0, 0] x1 inpos_S1x1_p0_0))) = _
  rw [extract_one]

/-! ## From blocks to the array -/

variable (V : (c : Dev nD) → (b : Ref sig .tc) → Buf (Elt Ideal) ((c : Thread nD τ).loc b))

theorem zeroOff1 : (![0, 0] : Fin 2 → Nat) = fun _ => 0 := funext fun a => by fin_cases a <;> rfl

/-- The ternary array as one function of the weights and the one-entry factor array. -/
def ternArr (w : S4096x4096.Idx → EReal) (f : S1x1.Idx → EReal) : S4096x4096.Idx → EReal :=
  fun j => ternBy (w j) (f (ix2 (0 : Fin 1) (0 : Fin 1)))

/-- The printed index maps over the 16 points: the weights' block is the output's block, the factor's block is (0, 0). -/
theorem idx_facts1 : ∀ t : Fin cfg1.N,
    win1_0.index t (0 : Fin 2) = win1_2.index t (0 : Fin 2) ∧ win1_0.index t (1 : Fin 2) = win1_2.index t (1 : Fin 2)
    ∧ win1_1.index t (0 : Fin 2) = 0 ∧ win1_1.index t (1 : Fin 2) = 0
    ∧ win1_2.index t (0 : Fin 2) ≤ 15 ∧ win1_2.index t (1 : Fin 2) = 0 :=
  (by decide +kernel : ∀ t : Fin grid1.N, _)

/-- Every output block is some point's. -/
theorem idx_onto1 : ∀ (q0 : Fin 16), ∃ t : Fin cfg1.N, win1_2.index t = ![q0.val, 0] :=
  (by decide +kernel : ∀ (q0 : Fin 16), ∃ t : Fin grid1.N, win1_2.index t = ![q0.val, 0])

/-- A block of the weights at a point, read at an index of the block. -/
theorem iblk1_0_apply (c : Dev nD) (t : Fin cfg1.N) (y : S256x4096.Idx) (i : S4096x4096.Idx)
    (h0 : (i 0).val = win1_0.index t (0 : Fin 2) * 256 + (y 0).val) (h1 : (i 1).val = win1_0.index t (1 : Fin 2) * 4096 + (y 1).val) :
    (iblk1 V c 0 t : Vec Ideal S256x4096 .f32) y = (V c main_arg1 : S4096x4096.Idx → EReal) i := by
  unfold iblk1
  rw [View.read_apply]
  show V c main_arg1 _ = V c main_arg1 _
  congr 1
  funext a
  apply Fin.ext
  match a with
  | ⟨0, _⟩ => show win1_0.index t (0 : Fin 2) * 256 + 1 * (y 0).val = (i 0).val; omega
  | ⟨1, _⟩ => show win1_0.index t (1 : Fin 2) * 4096 + 1 * (y 1).val = (i 1).val; omega

/-- The factor's block at a point is the factor array itself. -/
theorem iblk1_1_apply (c : Dev nD) (t : Fin cfg1.N) (h0 : win1_1.index t (0 : Fin 2) = 0) (h1 : win1_1.index t (1 : Fin 2) = 0) :
    (iblk1 V c 1 t : Vec Ideal S1x1 .f32) (ix2 (0 : Fin 1) (0 : Fin 1)) = (V c main_v7 : S1x1.Idx → EReal) (ix2 (0 : Fin 1) (0 : Fin 1)) := by
  unfold iblk1
  rw [View.read_apply]
  show V c main_v7 _ = V c main_v7 _
  congr 1
  funext a
  apply Fin.ext
  match a with
  | ⟨0, _⟩ => show win1_1.index t (0 : Fin 2) * 1 + 1 * 0 = 0; omega
  | ⟨1, _⟩ => show win1_1.index t (1 : Fin 2) * 1 + 1 * 0 = 0; omega

/-- What a point writes back is its block of the ternary array of the arrays the region found. -/
theorem flushed1_eq (c : Dev nD) (t : Fin cfg1.N) :
    (dat1 (F := Ideal) V c).flushed 2 t
      = ((cfg1.win 2).blk t).view.read (Elt Ideal) (ternArr (V c main_arg1) (V c main_v7)) := by
  show (cfg1.win 2).cut (grid1.coords t) ((dat1 V c).after 2 t) = _
  rw [after1_2]
  unfold out1_2
  rw [View.canon_unit_zero zeroOff1]
  simp only [View.ld_unit_zero (S := S256x4096) zeroOff1, View.ld_unit_zero (S := S1x1) zeroOff1]
  obtain ⟨e0, e1, e2, e3, e4, e5⟩ := idx_facts1 t
  funext y
  show k1_pay1 (iblk1 V c 0 t) (iblk1 V c 1 t) y
    = ternArr (V c main_arg1) (V c main_v7) (((cfg1.win 2).blk t).view.emb y)
  refine (pay1_apply _ _ y).trans ?_
  unfold ternArr
  refine congrArg₂ ternBy ?_ (iblk1_1_apply V c t e2 e3)
  exact iblk1_0_apply V c t y _
    (by show win1_2.index t (0 : Fin 2) * 256 + 1 * (y 0).val = _; rw [e0]; omega)
    (by show win1_2.index t (1 : Fin 2) * 4096 + 1 * (y 1).val = _; rw [e1]; omega)

/-- An index is in a point's output block iff each coordinate is in the block's range. -/
theorem mem_blk1 (t : Fin cfg1.N) (i : S4096x4096.Idx) :
    i ∈ ((cfg1.win 2).blk t).view.set ↔ ∀ a : Fin 2, win1_2.index t a * S256x4096.size a ≤ (i a).val ∧ (i a).val < win1_2.index t a * S256x4096.size a + S256x4096.size a := by
  show i ∈ ((View.whole main_v8).slice (win1_2.rect t)).set ↔ _
  rw [View.set_slice_whole, Rect.mem_set_unit]
  exact Iff.rfl

/-- The output blocks tile the array: row o is in block o / 256. -/
theorem cover1 (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  obtain ⟨t, ht⟩ := idx_onto1 ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 4096 ≤ (i 1).val ∧ (i 1).val < win1_2.index t (1 : Fin 2) * 4096 + 4096; omega

/-- The region's output array after its last point: the ternary array of the arrays it found on entry. -/
theorem final1 (c : Dev nD) :
    (dat1 (F := Ideal) V c).arrAt 2 cfg1.N = ternArr (V c main_arg1) (V c main_v7) :=
  (dat1 V c).arrAt_eq_of_cover 2 _ (fun t _ => flushed1_eq V c t) cover1

end Cert.KernelIdeal.Hand

end
-- ==== Proof.Region2.lean ====
/-
  The third kernel region (the matrix product) as one whole-array function of the arrays it finds on entry:
  the output at row r, column o is the dot product over the 4096 shared entries of row r of the quantised
  activations and row o of the ternary weights, times row r's dequantising factor.
-/
import proofs.«118460_j24962349924854_2_alg».proof.Proof.Gen.KernelIdeal.Frame
import proofs.«118460_j24962349924854_2_alg».proof.Proof.LibKeepdims
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The block product's dimension record: both operands contract their second axis. -/
abbrev mmDims : DotDims S512x4096 S1024x4096 S512x1024 := dot_S512x4096_S1024x4096_S512x1024_1_1_0_0_n_n

theorem mm_lhs_0 (i : S512x1024.Idx) (c : mmDims.contr.Idx) : (mmDims.lhsIdx i c 0).val = (i 0).val := by
  unfold DotDims.lhsIdx
  rw [dif_neg (show ¬(0 : Fin S512x4096.rank) ∈ mmDims.lhsBatch by decide), dif_pos (show (0 : Fin S512x4096.rank) ∈ mmDims.lhsNonContracting by decide)]
  rfl
theorem mm_lhs_1 (i : S512x1024.Idx) (c : mmDims.contr.Idx) : (mmDims.lhsIdx i c 1).val = (c ⟨0, by decide⟩).val :=
  mmDims.lhsIdx_val_of_single rfl i c
theorem mm_rhs_0 (i : S512x1024.Idx) (c : mmDims.contr.Idx) : (mmDims.rhsIdx i c 0).val = (i 1).val := by
  unfold DotDims.rhsIdx
  rw [dif_neg (show ¬(0 : Fin S1024x4096.rank) ∈ mmDims.rhsBatch by decide), dif_pos (show (0 : Fin S1024x4096.rank) ∈ mmDims.rhsNonContracting by decide)]
  rfl
theorem mm_rhs_1 (i : S512x1024.Idx) (c : mmDims.contr.Idx) : (mmDims.rhsIdx i c 1).val = (c ⟨0, by decide⟩).val :=
  mmDims.rhsIdx_val_of_single rfl i c

/-- The block product into a zero accumulator, at row p and column q of the block: the sum over the 4096 shared
    entries of row p of the left operand times row q of the right. -/
theorem blockProduct_apply (l : FVec Ideal S512x4096 .bf16) (r : FVec Ideal S1024x4096 .bf16) (p : Fin 512) (q : Fin 1024) :
    matmul mmDims none l r (constant S512x1024 .f32 0x00000000#32) (ix2 p q) = ∑ k : Fin 4096, l (ix2 p k) * r (ix2 q k) := by
  simp only [matmul]
  rw [Ideal.matmul_constant_zero_apply, ← Equiv.sum_comp (contrEquiv1 mmDims 4096 rfl rfl).symm]
  refine Finset.sum_congr rfl fun k _ => ?_
  have hk := contrEquiv1_symm_val mmDims 4096 rfl rfl k
  have el : mmDims.lhsIdx (ix2 p q) ((contrEquiv1 mmDims 4096 rfl rfl).symm k) = ix2 p k := funext fun a => Fin.ext (by
    match a with
    | ⟨0, _⟩ => exact mm_lhs_0 _ _
    | ⟨1, _⟩ => exact (mm_lhs_1 _ _).trans hk)
  have er : mmDims.rhsIdx (ix2 p q) ((contrEquiv1 mmDims 4096 rfl rfl).symm k) = ix2 q k := funext fun a => Fin.ext (by
    match a with
    | ⟨0, _⟩ => exact mm_rhs_0 _ _
    | ⟨1, _⟩ => exact (mm_rhs_1 _ _).trans hk)
  rw [el, er]

/-- The body's stored value at row p, column q of its block: the block product there times the scale column's entry p. -/
theorem pay2_apply (x0 : Vec Ideal S512x4096 .bf16) (x1 : Vec Ideal S1024x4096 .bf16) (x2 : Vec Ideal S512x1 .f32)
    (p : Fin 512) (q : Fin 1024) :
    k2_pay1 x0 x1 x2 (ix2 p q) = (∑ k : Fin 4096, x0 (ix2 p k) * x1 (ix2 q k)) * x2 (ix2 p (0 : Fin 1)) := by
  unfold k2_pay1
  show matmul (F := Ideal) mmDims none (shapeCast S512x4096 x0 shapeCasts_S512x4096_S512x4096) (shapeCast S1024x4096 x1 shapeCasts_S1024x4096_S1024x4096) (constant (F := Ideal) S512x1024 .f32 0x00000000#32) (ix2 p q)
      * broadcastTo S512x1024 (shapeCast S512x1 x2 shapeCasts_S512x1_S512x1) broadcasts_S512x1_S512x1024 (ix2 p q) = _
  rw [shapeCast_self, shapeCast_self, shapeCast_self]
  refine congrArg₂ (· * ·) (blockProduct_apply x0 x1 p q) ?_
  exact Cert.Keepdims.broadcastTo_a1_ab_apply x2 _ p q

/-! ## From blocks to the array -/

variable (V : (c : Dev nD) → (b : Ref sig .tc) → Buf (Elt Ideal) ((c : Thread nD τ).loc b))

theorem zeroOff2 : (![0, 0] : Fin 2 → Nat) = fun _ => 0 := funext fun a => by fin_cases a <;> rfl

/-- The product array as one function of the three arrays the region reads: at row r, column o the dot product of
    row r of the activations and row o of the weights, times entry r of the scale column. -/
def prodArr (qa : S8192x4096.Idx → EReal) (tw : S4096x4096.Idx → EReal) (sc : S8192x1.Idx → EReal) : S8192x4096.Idx → EReal :=
  fun j => (∑ k : Fin 4096, qa (ix2 (⟨(j 0).val, (j 0).isLt⟩ : Fin 8192) k) * tw (ix2 (⟨(j 1).val, (j 1).isLt⟩ : Fin 4096) k))
    * sc (ix2 (⟨(j 0).val, (j 0).isLt⟩ : Fin 8192) (0 : Fin 1))

/-- The printed index maps over the 4 × 16 grid: the activations' and the scale column's row block is the output's row
    block, the weights' row block is the output's column block, and every second block index is 0. -/
theorem idx_facts2 : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = win2_3.index t (0 : Fin 2) ∧ win2_2.index t (1 : Fin 2) = 0
    ∧ win2_3.index t (0 : Fin 2) ≤ 15 ∧ win2_3.index t (1 : Fin 2) ≤ 3 :=
  (by decide +kernel : ∀ t : Fin grid2.N, _)

/-- Every output block is some point's. -/
theorem idx_onto2 : ∀ (q0 : Fin 16) (q1 : Fin 4), ∃ t : Fin cfg2.N, win2_3.index t = ![q0.val, q1.val] :=
  (by decide +kernel : ∀ (q0 : Fin 16) (q1 : Fin 4), ∃ t : Fin grid2.N, win2_3.index t = ![q0.val, q1.val])

/-- A block of the activations at a point, read at (p, k): the array at row (block index · 512 + p), column k. -/
theorem iblk2_0_apply (c : Dev nD) (t : Fin cfg2.N) (p : Fin 512) (k : Fin 4096) (i : S8192x4096.Idx)
    (h0 : (i 0).val = win2_0.index t (0 : Fin 2) * 512 + p.val) (h1 : (i 1).val = win2_0.index t (1 : Fin 2) * 4096 + k.val) :
    (iblk2 V c 0 t : Vec Ideal S512x4096 .bf16) (ix2 p k) = (V c main_v1_0 : S8192x4096.Idx → EReal) i := by
  unfold iblk2
  rw [View.read_apply]
  show V c main_v1_0 _ = V c main_v1_0 _
  congr 1
  funext a
  apply Fin.ext
  match a with
  | ⟨0, _⟩ => show win2_0.index t (0 : Fin 2) * 512 + 1 * p.val = (i 0).val; omega
  | ⟨1, _⟩ => show win2_0.index t (1 : Fin 2) * 4096 + 1 * k.val = (i 1).val; omega

/-- A block of the weights at a point, read at (q, k). -/
theorem iblk2_1_apply (c : Dev nD) (t : Fin cfg2.N) (q : Fin 1024) (k : Fin 4096) (i : S4096x4096.Idx)
    (h0 : (i 0).val = win2_1.index t (0 : Fin 2) * 1024 + q.val) (h1 : (i 1).val = win2_1.index t (1 : Fin 2) * 4096 + k.val) :
    (iblk2 V c 1 t : Vec Ideal S1024x4096 .bf16) (ix2 q k) = (V c main_v8 : S4096x4096.Idx → EReal) i := by
  unfold iblk2
  rw [View.read_apply]
  show V c main_v8 _ = V c main_v8 _
  congr 1
  funext a
  apply Fin.ext
  match a with
  | ⟨0, _⟩ => show win2_1.index t (0 : Fin 2) * 1024 + 1 * q.val = (i 0).val; omega
  | ⟨1, _⟩ => show win2_1.index t (1 : Fin 2) * 4096 + 1 * k.val = (i 1).val; omega

/-- A block of the scale column at a point, read at (p, 0). -/
theorem iblk2_2_apply (c : Dev nD) (t : Fin cfg2.N) (p : Fin 512) (u : Fin 1) (i : S8192x1.Idx)
    (h0 : (i 0).val = win2_2.index t (0 : Fin 2) * 512 + p.val) (h1 : (i 1).val = win2_2.index t (1 : Fin 2) * 1 + u.val) :
    (iblk2 V c 2 t : Vec Ideal S512x1 .f32) (ix2 p u) = (V c main_v10 : S8192x1.Idx → EReal) i := by
  unfold iblk2
  rw [View.read_apply]
  show V c main_v10 _ = V c main_v10 _
  congr 1
  funext a
  apply Fin.ext
  match a with
  | ⟨0, _⟩ => show win2_2.index t (0 : Fin 2) * 512 + 1 * p.val = (i 0).val; omega
  | ⟨1, _⟩ => show win2_2.index t (1 : Fin 2) * 1 + 1 * u.val = (i 1).val; omega

/-- What a point writes back is its block of the product array of the arrays the region found. -/
theorem flushed2_eq (c : Dev nD) (t : Fin cfg2.N) :
    (dat2 (F := Ideal) V c).flushed 3 t
      = ((cfg2.win 3).blk t).view.read (Elt Ideal) (prodArr (V c main_v1_0) (V c main_v8) (V c main_v10)) := by
  show (cfg2.win 3).cut (grid2.coords t) ((dat2 V c).after 3 t) = _
  rw [after2_3]
  unfold out2_3
  rw [View.canon_unit_zero zeroOff2]
  simp only [View.ld_unit_zero (S := S512x4096) zeroOff2, View.ld_unit_zero (S := S1024x4096) zeroOff2, View.ld_unit_zero (S := S512x1) zeroOff2]
  obtain ⟨e0, e1, e2, e3, e4, e5, e6, e7⟩ := idx_facts2 t
  funext y
  obtain ⟨p, q, rfl⟩ : ∃ (p : Fin 512) (q : Fin 1024), y = ix2 p q := ⟨y 0, y 1, eq_ix2 y⟩
  show k2_pay1 (iblk2 V c 0 t) (iblk2 V c 1 t) (iblk2 V c 2 t) (ix2 p q)
    = prodArr (V c main_v1_0) (V c main_v8) (V c main_v10) (((cfg2.win 3).blk t).view.emb (ix2 p q))
  refine (pay2_apply _ _ _ p q).trans ?_
  have r0 : ((((cfg2.win 3).blk t).view.emb (ix2 p q)) 0).val = win2_3.index t (0 : Fin 2) * 512 + p.val := by
    show win2_3.index t (0 : Fin 2) * 512 + 1 * p.val = _; omega
  have r1 : ((((cfg2.win 3).blk t).view.emb (ix2 p q)) 1).val = win2_3.index t (1 : Fin 2) * 1024 + q.val := by
    show win2_3.index t (1 : Fin 2) * 1024 + 1 * q.val = _; omega
  unfold prodArr
  refine congrArg₂ (· * ·) (Finset.sum_congr rfl fun k _ => congrArg₂ (· * ·) ?_ ?_) ?_
  · exact iblk2_0_apply V c t p k _ (by show _ = win2_0.index t (0 : Fin 2) * 512 + p.val; rw [e0]; exact r0) (by show k.val = _; rw [e1]; omega)
  · exact iblk2_1_apply V c t q k _ (by show _ = win2_1.index t (0 : Fin 2) * 1024 + q.val; rw [e2]; exact r1) (by show k.val = _; rw [e3]; omega)
  · exact iblk2_2_apply V c t p 0 _ (by show _ = win2_2.index t (0 : Fin 2) * 512 + p.val; rw [e4]; exact r0) (by show (0 : Nat) = _; rw [e5]; rfl)

/-- An index is in a point's output block iff each coordinate is in the block's range. -/
theorem mem_blk2 (t : Fin cfg2.N) (i : S8192x4096.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v11).slice (win2_3.rect t)).set ↔ _
  rw [View.set_slice_whole, Rect.mem_set_unit]
  exact Iff.rfl

/-- The output blocks tile the array: row r, column o is in the block (r / 512, o / 1024). -/
theorem cover2 (i : S8192x4096.Idx) : ∃ t : Fin cfg2.N, (cfg2.win 3).flush t = true ∧ i ∈ ((cfg2.win 3).blk t).view.set := by
  have hi0 : (i 0).val < 8192 := (i 0).isLt
  have hi1 : (i 1).val < 4096 := (i 1).isLt
  obtain ⟨t, ht⟩ := idx_onto2 ⟨(i 0).val / 512, by omega⟩ ⟨(i 1).val / 1024, by omega⟩
  have q0 : win2_3.index t (0 : Fin 2) = (i 0).val / 512 := congrFun ht 0
  have q1 : win2_3.index t (1 : Fin 2) = (i 1).val / 1024 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The region's output array after its last point: the product array of the arrays it found on entry. -/
theorem final2 (c : Dev nD) :
    (dat2 (F := Ideal) V c).arrAt 3 cfg2.N = prodArr (V c main_v1_0) (V c main_v8) (V c main_v10) :=
  (dat2 V c).arrAt_eq_of_cover 3 _ (fun t _ => flushed2_eq V c t) cover2

end Cert.KernelIdeal.Hand

end
-- ==== Proof.LibRowReshape.lean ====
/-
  A reshape that merges, or splits, the two leading axes of a rank-3 array, read at an index given by its coordinates.

  A shape cast keeps the row-major position of every entry. In the shape [a, b, c] the entry (p, q, k) sits at position
  (p·b + q)·c + k; in the shape [m, c] the entry (r, k) sits at position r·c + k. The two positions agree exactly when
  r = p·b + q, so

  * [a, b, c] merged to [m, c] reads, at (p·b + q, k), the operand at (p, q, k)   (`shapeCast_abc_mc_apply`);
  * [m, c] split to [a, b, c] reads, at (p, q, k), the operand at (p·b + q, k)     (`shapeCast_mc_abc_apply`).

  The row is passed as an index `r : Fin m` together with the equation `r = p·b + q` on its value, so that no bound on
  p·b + q has to be carried in the statement; that the shapes have equally many entries (m = a·b when c ≠ 0) is part of
  the shape-cast hypothesis and is not used otherwise.
-/
import Idealize.ShloMosaic.Lib.Pipeline.Value
import Idealize.ShloMosaic.Lib.ValueIdx

namespace Cert.RowReshape

open Idealize.ShloMosaic Idealize.ShloMosaic.ValueIdx

variable {α : Type}

/-- [a, b, c] merged to [a·b, c]: the entry at (row, k), where row = p·b + q, is the operand at (p, q, k). -/
theorem shapeCast_abc_mc_apply {a b c m : ℕ} (x : (⟨3, ![a, b, c]⟩ : Shape).Idx → α)
    (h : (⟨3, ![a, b, c]⟩ : Shape).ShapeCasts ⟨2, ![m, c]⟩)
    (p : Fin a) (q : Fin b) (k : Fin c) (r : Fin m) (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

/-- [a·b, c] split to [a, b, c]: the entry at (p, q, k) is the operand at (p·b + q, k). -/
theorem shapeCast_mc_abc_apply {a b c m : ℕ} (y : (⟨2, ![m, c]⟩ : Shape).Idx → α)
    (h : (⟨2, ![m, c]⟩ : Shape).ShapeCasts ⟨3, ![a, b, c]⟩)
    (p : Fin a) (q : Fin b) (k : Fin c) (r : Fin m) (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

end Cert.RowReshape
-- ==== Proof.Glue.lean ====
/-
  The host operations between the three kernel regions, and the kernel's result at an index.
  The contents of every buffer at each boundary of the program are a fold from the launch memory. Here each buffer
  a region reads is walked back through that fold: the first region reads the activations reshaped to rows; the weight
  scale is the clipped mean of |w|, its reciprocal the one-entry factor the second region reads; the third region reads
  the first region's two outputs (the scale column first multiplied by the weight scale) and the second region's output.
  Put together, the result array at (a, b, o) is Spec's `kernelOut` of row (a, b) of the activations, row o of the weights
  and the weight scale.
-/
import proofs.«118460_j24962349924854_2_alg».proof.Proof.Gen.KernelIdeal.Frame
import proofs.«118460_j24962349924854_2_alg».proof.Proof.Spec
import proofs.«118460_j24962349924854_2_alg».proof.Proof.Region0
import proofs.«118460_j24962349924854_2_alg».proof.Proof.Region1
import proofs.«118460_j24962349924854_2_alg».proof.Proof.Region2
import proofs.«118460_j24962349924854_2_alg».proof.Proof.LibRowReshape
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.StableHlo (after_cons after_nil)
open Cert.BitLinear (wScale zero tHi eps count kernelOut quant tern ternBy rowInvScale)

/-- The weight scale: the mean of all |w| (summed from +0, over 2^24), floored at ε. -/
def weightScale (w : S4096x4096.Idx → EReal) : EReal := wScale (zero + ∑ j : S4096x4096.Idx, max (w j) (-(w j)))

/-- The host's sum of |w| over both axes, at its one index. -/
theorem sumAbs_apply (w : FVec Ideal S4096x4096 .f32) (i : S_.Idx) :
    Host.reduceAdd (F := Ideal) (Host.absf w) (constant S_ .f32 0x00000000#32) reducesTo_S4096x4096_S_d0_1 h_S_ i
      = zero + ∑ j : S4096x4096.Idx, max (w j) (-(w j)) := by
  simp only [Host.reduceAdd, Ideal.hostReduceAdd_def]
  exact Ideal.hostReduceAdd_total reducesTo_S4096x4096_S_d0_1 (fun b => b.elim0) _ _ i

/-- A one-entry array reshaped from rank 0 to [1, 1] reads its one entry. -/
theorem cast_scalar_11 {α : Type} (v : S_.Idx → α) (h : S_.ShapeCasts S1x1) (j : S1x1.Idx) (k : S_.Idx) :
    shapeCast S1x1 v h j = v k :=
  shapeCast_apply v h j k (by
    have h1 : (S_.rowMajor k).val < S_.numel := (S_.rowMajor k).isLt
    have h2 : (S1x1.rowMajor j).val < S1x1.numel := (S1x1.rowMajor j).isLt
    have e1 : S_.numel = 1 := by decide
    have e2 : S1x1.numel = 1 := by decide
    omega)

/-! ## The host stretches, from any contents `U` at their start -/

section Stretches

variable (U : Valuation τ sig (Elt Ideal))

/-- After the stretch between the first two regions, the scale buffer holds the weight scale of the weights as the
    stretch finds them. -/
theorem stretch1_scale (w : FVec Ideal S4096x4096 .f32) (hw : U (Proc.devRef .tc main_arg1) = w) (i : S_.Idx) :
    StableHlo.after hostOps1_2 (StableHlo.after hostOps1_1 (StableHlo.after hostOps1 U)) (Proc.devRef .tc main_v5) i
      = weightScale w := by
  after_results
  rw [hw]
  generalize hs : Host.reduceAdd (F := Ideal) (Host.absf w) (constant S_ .f32 0x00000000#32) reducesTo_S4096x4096_S_d0_1 h_S_ = s
  show max eps (Ideal.div (s i) count) = _
  rw [← hs, sumAbs_apply]
  rfl

/-- … and the one-entry factor buffer holds 1 over that scale. -/
theorem stretch1_factor (w : FVec Ideal S4096x4096 .f32) (hw : U (Proc.devRef .tc main_arg1) = w) (j : S1x1.Idx) :
    StableHlo.after hostOps1_2 (StableHlo.after hostOps1_1 (StableHlo.after hostOps1 U)) (Proc.devRef .tc main_v7) j
      = Ideal.div tHi (weightScale w) := by
  after_results
  rw [hw]
  generalize hs : Host.reduceAdd (F := Ideal) (Host.absf w) (constant S_ .f32 0x00000000#32) reducesTo_S4096x4096_S_d0_1 h_S_ = s
  show shapeCast S1x1 _ shapeCasts_S_S1x1 j = _
  rw [cast_scalar_11 _ _ j ix0]
  show Ideal.div tHi (max eps (Ideal.div (s ix0) count)) = _
  rw [← hs, sumAbs_apply]
  rfl

/-- The stretch writes none of the first region's outputs, nor the weights. -/
theorem stretch1_keep_q :
    StableHlo.after hostOps1_2 (StableHlo.after hostOps1_1 (StableHlo.after hostOps1 U)) (Proc.devRef .tc main_v1_0) = U (Proc.devRef .tc main_v1_0) := by
  after_results
theorem stretch1_keep_s :
    StableHlo.after hostOps1_2 (StableHlo.after hostOps1_1 (StableHlo.after hostOps1 U)) (Proc.devRef .tc main_v1_1) = U (Proc.devRef .tc main_v1_1) := by
  after_results
theorem stretch1_keep_w :
    StableHlo.after hostOps1_2 (StableHlo.after hostOps1_1 (StableHlo.after hostOps1 U)) (Proc.devRef .tc main_arg1) = U (Proc.devRef .tc main_arg1) := by
  after_results

/-- After the stretch before the third region, the scaled column holds the scale column times the weight scale. -/
theorem stretch2_scaled (sv : FVec Ideal S8192x1 .f32) (hsv : U (Proc.devRef .tc main_v1_1) = sv)
    (mv : FVec Ideal S_ .f32) (hmv : U (Proc.devRef .tc main_v5) = mv) (r : Fin 8192) (u : Fin 1) :
    StableHlo.after hostOps2 U (Proc.devRef .tc main_v10) (ix2 r u) = sv (ix2 r u) * mv ix0 := by
  after_results
  rw [hsv, hmv, mulf_apply, broadcastInDim_apply _ bcast_S_S8192x1 _ (ix2 r u) ix0 (fun a => a.elim0)]

/-- … and it writes neither the quantised array nor the ternary array. -/
theorem stretch2_keep_q : StableHlo.after hostOps2 U (Proc.devRef .tc main_v1_0) = U (Proc.devRef .tc main_v1_0) := by
  after_results
theorem stretch2_keep_t : StableHlo.after hostOps2 U (Proc.devRef .tc main_v8) = U (Proc.devRef .tc main_v8) := by
  after_results

end Stretches

variable (m : (ℓ : Loc nD τ sig) → Buf (Elt Ideal) ℓ) (ρ : Dev nD → PrngReg) (c : Dev nD)

/-! ## Before the first region -/

/-- The first region reads the activations reshaped to 8192 rows. -/
theorem entry_v0 : W1 m ρ c (Proc.devRef .tc main_v0)
    = shapeCast S8192x4096 (m ((c : Thread nD τ).loc main_arg0)) shapeCasts_S4x2048x4096_S8192x4096 := by
  show StableHlo.after hostOps0 (W0 m ρ c) (Proc.devRef .tc main_v0) = _
  after_results
  try rfl

/-- The weights are still the launch contents after the reshape. -/
theorem W1_w : W1 m ρ c (Proc.devRef .tc main_arg1) = m ((c : Thread nD τ).loc main_arg1) := by
  show StableHlo.after hostOps0 (W0 m ρ c) (Proc.devRef .tc main_arg1) = _
  after_results
  try rfl

/-! ## The regions' whole-array functions at an index given by coordinates -/

theorem prodArr_apply (qa : S8192x4096.Idx → EReal) (tw : S4096x4096.Idx → EReal) (sc : S8192x1.Idx → EReal)
    (r : Fin 8192) (o : Fin 4096) :
    prodArr qa tw sc (ix2 r o) = (∑ k : Fin 4096, qa (ix2 r k) * tw (ix2 o k)) * sc (ix2 r (0 : Fin 1)) := rfl
theorem quantArr_apply (x : S8192x4096.Idx → EReal) (r : Fin 8192) (k : Fin 4096) :
    quantArr x (ix2 r k) = quant (arrRow x r) k := rfl
theorem invScaleArr_apply (x : S8192x4096.Idx → EReal) (r : Fin 8192) (u : Fin 1) :
    invScaleArr x (ix2 r u) = rowInvScale (arrRow x r) := rfl
theorem ternArr_apply (w : S4096x4096.Idx → EReal) (f : S1x1.Idx → EReal) (o k : Fin 4096) :
    ternArr w f (ix2 o k) = ternBy (w (ix2 o k)) (f (ix2 (0 : Fin 1) (0 : Fin 1))) := rfl

/-! ## At the first region's exit -/

theorem W2_q : W2 m ρ c (Proc.devRef .tc main_v1_0) = quantArr (W1 m ρ c (Proc.devRef .tc main_v0)) :=
  (W2_arr m ρ c 1).trans (final0_1 (V1 m ρ) c)
theorem W2_s : W2 m ρ c (Proc.devRef .tc main_v1_1) = invScaleArr (W1 m ρ c (Proc.devRef .tc main_v0)) :=
  (W2_arr m ρ c 2).trans (final0_2 (V1 m ρ) c)
theorem W2_w : W2 m ρ c (Proc.devRef .tc main_arg1) = m ((c : Thread nD τ).loc main_arg1) :=
  (W2_of_ne m ρ c main_arg1 (by decide)).trans (W1_w m ρ c)

/-! ## At the second region's entry -/

theorem W5_w : W5 m ρ c (Proc.devRef .tc main_arg1) = m ((c : Thread nD τ).loc main_arg1) :=
  (stretch1_keep_w (W2 m ρ c)).trans (W2_w m ρ c)
theorem W5_q : W5 m ρ c (Proc.devRef .tc main_v1_0) = quantArr (W1 m ρ c (Proc.devRef .tc main_v0)) :=
  (stretch1_keep_q (W2 m ρ c)).trans (W2_q m ρ c)
theorem W5_s : W5 m ρ c (Proc.devRef .tc main_v1_1) = invScaleArr (W1 m ρ c (Proc.devRef .tc main_v0)) :=
  (stretch1_keep_s (W2 m ρ c)).trans (W2_s m ρ c)
theorem W5_scale (i : S_.Idx) : W5 m ρ c (Proc.devRef .tc main_v5) i = weightScale (m ((c : Thread nD τ).loc main_arg1)) :=
  stretch1_scale (W2 m ρ c) _ (W2_w m ρ c) i
theorem W5_factor (j : S1x1.Idx) :
    W5 m ρ c (Proc.devRef .tc main_v7) j = Ideal.div tHi (weightScale (m ((c : Thread nD τ).loc main_arg1))) :=
  stretch1_factor (W2 m ρ c) _ (W2_w m ρ c) j

/-! ## At the second region's exit -/

theorem W6_t : W6 m ρ c (Proc.devRef .tc main_v8)
    = ternArr (W5 m ρ c (Proc.devRef .tc main_arg1)) (W5 m ρ c (Proc.devRef .tc main_v7)) :=
  (W6_arr m ρ c 2).trans (final1 (V5 m ρ) c)
theorem W6_q : W6 m ρ c (Proc.devRef .tc main_v1_0) = quantArr (W1 m ρ c (Proc.devRef .tc main_v0)) :=
  (W6_of_ne m ρ c main_v1_0 (by decide)).trans (W5_q m ρ c)
theorem W6_s : W6 m ρ c (Proc.devRef .tc main_v1_1) = invScaleArr (W1 m ρ c (Proc.devRef .tc main_v0)) :=
  (W6_of_ne m ρ c main_v1_1 (by decide)).trans (W5_s m ρ c)
theorem W6_scale (i : S_.Idx) : W6 m ρ c (Proc.devRef .tc main_v5) i = weightScale (m ((c : Thread nD τ).loc main_arg1)) := by
  rw [W6_of_ne m ρ c main_v5 (by decide)]
  exact W5_scale m ρ c i

/-! ## At the third region's entry and exit, and the result -/

theorem W7_q : W7 m ρ c (Proc.devRef .tc main_v1_0) = quantArr (W1 m ρ c (Proc.devRef .tc main_v0)) :=
  (stretch2_keep_q (W6 m ρ c)).trans (W6_q m ρ c)
theorem W7_t : W7 m ρ c (Proc.devRef .tc main_v8)
    = ternArr (W5 m ρ c (Proc.devRef .tc main_arg1)) (W5 m ρ c (Proc.devRef .tc main_v7)) :=
  (stretch2_keep_t (W6 m ρ c)).trans (W6_t m ρ c)
theorem W7_scaled (r : Fin 8192) (u : Fin 1) :
    W7 m ρ c (Proc.devRef .tc main_v10) (ix2 r u)
      = invScaleArr (W1 m ρ c (Proc.devRef .tc main_v0)) (ix2 r u) * weightScale (m ((c : Thread nD τ).loc main_arg1)) :=
  (stretch2_scaled (W6 m ρ c) _ (W6_s m ρ c) _ rfl r u).trans (congrArg (_ * ·) (W6_scale m ρ c ix0))

theorem W8_p : W8 m ρ c (Proc.devRef .tc main_v11)
    = prodArr (W7 m ρ c (Proc.devRef .tc main_v1_0)) (W7 m ρ c (Proc.devRef .tc main_v8)) (W7 m ρ c (Proc.devRef .tc main_v10)) :=
  (W8_arr m ρ c 3).trans (final2 (V7 m ρ) c)

theorem W9_r : W9 m ρ c (Proc.devRef .tc main_v12)
    = shapeCast S4x2048x4096 (W8 m ρ c (Proc.devRef .tc main_v11)) shapeCasts_S8192x4096_S4x2048x4096 := by
  show StableHlo.after hostOps3 (W8 m ρ c) (Proc.devRef .tc main_v12) = _
  after_results
  try rfl

/-- Row a·2048 + b of the array the first region reads is row (a, b) of the activations. -/
theorem entry_row (a : Fin 4) (b : Fin 2048) (r : Fin 8192) (hr : r.val = a.val * 2048 + b.val) :
    arrRow (W1 m ρ c (Proc.devRef .tc main_v0)) r
      = fun k => (m ((c : Thread nD τ).loc main_arg0) : S4x2048x4096.Idx → EReal) (ix3 a b k) := by
  funext k
  show (W1 m ρ c (Proc.devRef .tc main_v0) : S8192x4096.Idx → EReal) (ix2 r k) = _
  rw [entry_v0]
  exact Cert.RowReshape.shapeCast_abc_mc_apply _ _ a b k r hr

/-- THE KERNEL'S RESULT at (a, b, o): Spec's `kernelOut` of row (a, b) of the activations, row o of the weights and
    the weight scale. -/
theorem result_apply (a : Fin 4) (b : Fin 2048) (o : Fin 4096) :
    (W9 m ρ c (Proc.devRef .tc main_v12) : S4x2048x4096.Idx → EReal) (ix3 a b o)
      = kernelOut (fun k => (m ((c : Thread nD τ).loc main_arg0) : S4x2048x4096.Idx → EReal) (ix3 a b k))
          (fun k => (m ((c : Thread nD τ).loc main_arg1) : S4096x4096.Idx → EReal) (ix2 o k))
          (weightScale (m ((c : Thread nD τ).loc main_arg1))) := by
  have hab : a.val * 2048 + b.val < 8192 := by have := a.isLt; have := b.isLt; omega
  have hrow := entry_row m ρ c a b ⟨a.val * 2048 + b.val, hab⟩ rfl
  rw [W9_r, Cert.RowReshape.shapeCast_mc_abc_apply _ _ a b o ⟨a.val * 2048 + b.val, hab⟩ rfl, W8_p, prodArr_apply,
    W7_scaled, invScaleArr_apply, hrow, W7_q, W7_t]
  simp only [quantArr_apply, ternArr_apply, hrow]
  rw [W5_w, W5_factor]
  rfl

end Cert.KernelIdeal.Hand

end
-- ==== Proof.RefValue.lean ====
/-
  The reference program read at one output element: it is the reference arrangement of Proof/Spec.lean.

  At the output index (a, b, o) the reference divides the dot product over k of
      (the quantised entry of row (a, b) at k, divided by 127 / scale)  ·  (the ternary weight of row o at k)
  by 1 / mw, where the scale is the floored largest absolute value of activation row (a, b) and mw the floored
  mean of all |w|. Every stage but one reads at an index by the generated lemmas; the row maximum is a fold of
  max from −∞ over the last axis, read here by hand.
-/
import proofs.«118460_j24962349924854_2_alg».proof.Proof.RefRead
import proofs.«118460_j24962349924854_2_alg».proof.Proof.Spec
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx
  Cert.BitLinear

/-! ### Index equations -/

/-- The row index (a, b) with coordinate k put back on the last axis is (a, b, k). -/
theorem lift_ix3 (h : S4x2048x4096.Reduces [2] S4x2048) (a : Fin 4) (b : Fin 2048) (k : Fin (S4x2048x4096.size 2)) :
    h.lift (ix2 a b) k = ix3 a b (⟨k.val, k.isLt⟩ : Fin 4096) := by
  funext c; apply Fin.ext
  fin_cases c <;> rfl

/-- The keep-dims index of (a, b, k) is (a, b, 0). -/
theorem idx_v6_ix3 (a : Fin 4) (b : Fin 2048) (k : Fin 4096) : idx_main_v6 (ix3 a b k) = ix3 a b (0 : Fin 1) :=
  funext fun d => Fin.ext (by match d with | ⟨0, _⟩ => rfl | ⟨1, _⟩ => rfl | ⟨2, _⟩ => rfl)

theorem idx_v10_ix3 (a : Fin 4) (b : Fin 2048) (k : Fin 4096) : idx_main_v10 (ix3 a b k) = ix3 a b (0 : Fin 1) :=
  funext fun d => Fin.ext (by match d with | ⟨0, _⟩ => rfl | ⟨1, _⟩ => rfl | ⟨2, _⟩ => rfl)

/-- The row index of (a, b, 0) is (a, b). -/
theorem idx_v2_ix3 (a : Fin 4) (b : Fin 2048) : idx_main_v2 (ix3 a b (0 : Fin 1)) = ix2 a b :=
  funext fun d => Fin.ext (by match d with | ⟨0, _⟩ => rfl | ⟨1, _⟩ => rfl)

/-- The left operand of the dot product at (a, b, o), term k, is read at (a, b, k). -/
theorem lidx_v21_ix3 (a : Fin 4) (b : Fin 2048) (o k : Fin 4096) : lidx_main_v21 (ix3 a b o) k = ix3 a b k :=
  funext fun d => Fin.ext (by match d with | ⟨0, _⟩ => rfl | ⟨1, _⟩ => rfl | ⟨2, _⟩ => rfl)

/-- The right operand of the dot product at (a, b, o), term k, is read at (o, k). -/
theorem ridx_v21_ix3 (a : Fin 4) (b : Fin 2048) (o k : Fin 4096) : ridx_main_v21 (ix3 a b o) k = ix2 o k :=
  funext fun d => Fin.ext (by match d with | ⟨0, _⟩ => rfl | ⟨1, _⟩ => rfl)

/-! ### The stages -/

/-- The row maximum at (a, b) is the largest absolute value of activation row (a, b). -/
theorem v1_eq (x0 : (⟨S4x2048x4096, .f32⟩ : BufTy).Contents (Elt Ideal)) (a : Fin 4) (b : Fin 2048) :
    val_main_v1 (F := Ideal) x0 (ix2 a b) = rowAbsMax (fun k => x0 (ix3 a b k)) := by
  have h : S4x2048x4096.Reduces [2] S4x2048 := by decide
  unfold val_main_v1
  rw [Host.reduce_eq_fold_single FloatOps.maximumf _ _ reducesTo_S4x2048x4096_S4x2048_d2 h h_S_]
  have hf : (val_main_v0 (F := Ideal) x0 ∘ h.lift (ix2 a b))
      = fun k : Fin 4096 => max (x0 (ix3 a b k)) (-(x0 (ix3 a b k))) :=
    funext fun k => congrArg (val_main_v0 (F := Ideal) x0) (lift_ix3 h a b k)
  exact congrArg (fun f => Finset.fold max negInf f (Finset.univ : Finset (Fin 4096))) hf

/-- The floored row maximum at (a, b, 0) is the scale of activation row (a, b). -/
theorem v3_eq (x0 : (⟨S4x2048x4096, .f32⟩ : BufTy).Contents (Elt Ideal)) (a : Fin 4) (b : Fin 2048) :
    val_main_v3 (F := Ideal) x0 (ix3 a b (0 : Fin 1)) = rowScale (fun k => x0 (ix3 a b k)) := by
  rw [val_main_v3_apply, val_main_call0_v1_apply, val_main_call0_v0_apply, val_main_cst_0_apply, val_main_v2_apply,
    idx_v2_ix3, v1_eq]
  rfl

/-- The activation scale at (a, b, 0) is 127 over the scale of row (a, b). -/
theorem v5_eq (x0 : (⟨S4x2048x4096, .f32⟩ : BufTy).Contents (Elt Ideal)) (a : Fin 4) (b : Fin 2048) :
    val_main_v5 (F := Ideal) x0 (ix3 a b (0 : Fin 1)) = Ideal.div qhi (rowScale (fun k => x0 (ix3 a b k))) := by
  rw [val_main_v5_apply, val_main_v4_apply, val_main_cst_1_apply, v3_eq]
  rfl

/-- The clipped rounded product at (a, b, k) is the quantised entry k of row (a, b). -/
theorem v9_eq (x0 : (⟨S4x2048x4096, .f32⟩ : BufTy).Contents (Elt Ideal)) (a : Fin 4) (b : Fin 2048) (k : Fin 4096) :
    val_main_v9 (F := Ideal) x0 (ix3 a b k) = quant (fun k => x0 (ix3 a b k)) k := by
  rw [val_main_v9_apply, val_main_call2_v4_apply, val_main_call2_v3_apply, val_main_cst_3_apply,
    val_main_call2_v2_apply, val_main_call2_v1_apply, val_main_call2_v0_apply, val_main_cst_2_apply,
    val_main_v8_apply, val_main_v7_apply, val_main_v6_apply, idx_v6_ix3, v5_eq]
  rfl

/-- The dequantised entry at (a, b, k): the quantised entry over 127 / scale. -/
theorem v11_eq (x0 : (⟨S4x2048x4096, .f32⟩ : BufTy).Contents (Elt Ideal)) (a : Fin 4) (b : Fin 2048) (k : Fin 4096) :
    val_main_v11 (F := Ideal) x0 (ix3 a b k)
      = Ideal.div (quant (fun k => x0 (ix3 a b k)) k) (Ideal.div qhi (rowScale (fun k => x0 (ix3 a b k)))) := by
  rw [val_main_v11_apply, v9_eq, val_main_v10_apply, idx_v10_ix3, v5_eq]
  rfl

/-- The floored mean of all |w| is the weight scale of their sum accumulated from +0. -/
theorem v15_eq (x1 : (⟨S4096x4096, .f32⟩ : BufTy).Contents (Elt Ideal)) (i : S_.Idx) :
    val_main_v15 (F := Ideal) x1 i = wScale (zero + ∑ j : S4096x4096.Idx, max (x1 j) (-(x1 j))) := by
  rw [val_main_v15_apply, val_main_call3_v0_apply, val_main_cst_6_apply, val_main_v14_apply, val_main_v13_apply,
    val_main_cst_5_apply, val_main_cst_4_apply]
  rfl

/-- The reciprocal weight scale: 1 over the weight scale. -/
theorem v16_eq (x1 : (⟨S4096x4096, .f32⟩ : BufTy).Contents (Elt Ideal)) (i : S_.Idx) :
    val_main_v16 (F := Ideal) x1 i
      = Ideal.div tHi (wScale (zero + ∑ j : S4096x4096.Idx, max (x1 j) (-(x1 j)))) := by
  rw [val_main_v16_apply, val_main_cst_7_apply, v15_eq]
  rfl

/-- The clipped rounded scaled weight at an index is the ternary weight there. -/
theorem v20_eq (x1 : (⟨S4096x4096, .f32⟩ : BufTy).Contents (Elt Ideal)) (i : S4096x4096.Idx) :
    val_main_v20 (F := Ideal) x1 i
      = tern (x1 i) (wScale (zero + ∑ j : S4096x4096.Idx, max (x1 j) (-(x1 j)))) := by
  rw [val_main_v20_apply, val_main_call5_v4_apply, val_main_call5_v3_apply, val_main_cst_9_apply,
    val_main_call5_v2_apply, val_main_call5_v1_apply, val_main_call5_v0_apply, val_main_cst_8_apply,
    val_main_v19_apply, val_main_v18_apply, val_main_v17_apply, v16_eq]
  rfl

/-! ### The result -/

/-- The reference's result at (a, b, o) is the reference arrangement on activation row (a, b), weight row o and the
    weight scale of the sum of all |w|. -/
theorem ref_apply (x0 : (⟨S4x2048x4096, .f32⟩ : BufTy).Contents (Elt Ideal)) (x1 : (⟨S4096x4096, .f32⟩ : BufTy).Contents (Elt Ideal))
    (a : Fin 4) (b : Fin 2048) (o : Fin 4096) :
    val_main_v23 (F := Ideal) x0 x1 (ix3 a b o)
      = refOut (fun k => x0 (ix3 a b k)) (fun k => x1 (ix2 o k))
          (wScale (zero + ∑ j : S4096x4096.Idx, max (x1 j) (-(x1 j)))) := by
  rw [val_main_v23_apply, val_main_v21_apply, val_main_v22_apply, v16_eq]
  simp only [lidx_v21_ix3, ridx_v21_ix3, v11_eq, v20_eq]
  rfl

end Cert.ReferenceIdeal.RefValue

end
-- ==== Proof.Law.lean ====
/-
  The dequantising law of a BitLinear layer on the extended reals.

  The kernel multiplies the integer dot product by ONE factor, (scale / 127) · mw; the reference divides each
  quantised entry by 127 / scale before the dot product and divides the result by 1 / mw. Over the reals with
  scale > 0 and mw > 0 these agree: a / (127 / c) = a · c / 127, the constant factor leaves the finite sum, and
  X / (1 / mw) = X · mw. On the extended reals the same computation goes through once every quantity in sight is
  a real: the clipped values are real because they lie between two reals, the row's scale is a real because it is
  at least ε > 0 and a finite maximum of reals is never +∞, and the weight scale likewise.
-/
import proofs.«118460_j24962349924854_2_alg».proof.Proof.Spec

noncomputable section

namespace Cert.BitLinear

open Idealize.ShloMosaic

/-! ### The literals -/

/-- The pattern of 1.0 denotes 1. -/
theorem tHi_eq : tHi = 1 := by
  simp [tHi, Ideal.ofBits, Ideal.ieee, -EReal.coe_mul]; norm_num

/-- The pattern of 127.0 denotes the real 127. -/
theorem qhi_eq : qhi = ((127 : ℝ) : EReal) := by
  simp [qhi, Ideal.ofBits, Ideal.ieee, -EReal.coe_mul]; norm_num

/-- The pattern of −128.0 denotes the real −128. -/
theorem qlo_eq : qlo = ((-128 : ℝ) : EReal) := by
  simp [qlo, Ideal.ofBits, Ideal.ieee, -EReal.coe_mul]; norm_num

/-- The pattern of −1.0 denotes the real −1. -/
theorem tLo_eq : tLo = ((-1 : ℝ) : EReal) := by
  simp [tLo, Ideal.ofBits, Ideal.ieee, -EReal.coe_mul]; norm_num

/-- The pattern of 2^24 denotes the real 16777216. -/
theorem count_eq : count = ((16777216 : ℝ) : EReal) := by
  simp [count, Ideal.ofBits, Ideal.ieee, -EReal.coe_mul]; norm_num

/-- The pattern of −∞ denotes the bottom element. -/
theorem negInf_eq : negInf = ⊥ := by
  simp [negInf, Ideal.ofBits, Ideal.ieee]

/-- The pattern of +0 denotes 0. -/
theorem zero_eq : zero = 0 := by
  simp [zero, Ideal.ofBits, Ideal.ieee]

/-- The floor ε is a positive real (a normal number: 10995116 · 2^(−40)). -/
theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

/-- 1 as the coercion of the real 1. -/
theorem tHi_eq_coe : tHi = ((1 : ℝ) : EReal) := by rw [tHi_eq, EReal.coe_one]

/-! ### Which extended reals are real -/

/-- An extended real between two reals is a real. -/
theorem real_of_between {a b : ℝ} {x : EReal} (ha : (a : EReal) ≤ x) (hb : x ≤ (b : EReal)) :
    ∃ r : ℝ, x = (r : EReal) := by
  induction x using EReal.rec with
  | bot => exact absurd (le_bot_iff.mp ha) (EReal.coe_ne_bot a)
  | coe r => exact ⟨r, rfl⟩
  | top => exact absurd (top_le_iff.mp hb) (EReal.coe_ne_top b)

/-- An extended real that is at least a real and is not +∞ is a real, at least that real. -/
theorem real_of_ge_lt_top {a : ℝ} {x : EReal} (ha : (a : EReal) ≤ x) (hb : x < ⊤) :
    ∃ r : ℝ, a ≤ r ∧ x = (r : EReal) := by
  induction x using EReal.rec with
  | bot => exact absurd (le_bot_iff.mp ha) (EReal.coe_ne_bot a)
  | coe r => exact ⟨r, EReal.coe_le_coe_iff.mp ha, rfl⟩
  | top => exact absurd hb (lt_irrefl _)

/-- Clipping to a real interval gives a real, whatever is clipped. -/
theorem clip_real {a b : ℝ} (hab : a ≤ b) (x : EReal) :
    ∃ r : ℝ, min (b : EReal) (max (a : EReal) x) = (r : EReal) :=
  real_of_between (le_min (EReal.coe_le_coe_iff.mpr hab) (le_max_left _ _)) (min_le_left _ _)

/-- A quantised entry is a real. -/
theorem quant_real (xr : Fin 4096 → EReal) (k : Fin 4096) : ∃ r : ℝ, quant xr k = (r : EReal) := by
  unfold quant
  rw [qhi_eq, qlo_eq]
  exact clip_real (by norm_num) _

/-- A ternary weight is a real. -/
theorem tern_real (wv mw : EReal) : ∃ r : ℝ, tern wv mw = (r : EReal) := by
  unfold tern ternBy
  rw [tHi_eq_coe, tLo_eq]
  exact clip_real (by norm_num) _

/-- The largest absolute value of a row of reals is not +∞. -/
theorem rowAbsMax_lt_top (xr : Fin 4096 → EReal) (hx : ∀ k, ∃ r : ℝ, xr k = (r : EReal)) :
    rowAbsMax xr < ⊤ := by
  unfold rowAbsMax
  rw [Finset.fold_max_lt]
  refine ⟨by rw [negInf_eq]; exact bot_lt_top, fun k _ => ?_⟩
  obtain ⟨r, hr⟩ := hx k
  rw [hr, ← EReal.coe_neg]
  exact max_lt (EReal.coe_lt_top _) (EReal.coe_lt_top _)

/-- The scale of a row of reals is a positive real. -/
theorem rowScale_real (xr : Fin 4096 → EReal) (hx : ∀ k, ∃ r : ℝ, xr k = (r : EReal)) :
    ∃ c : ℝ, 0 < c ∧ rowScale xr = (c : EReal) := by
  obtain ⟨e, he, heq⟩ := eps_pos
  have h1 : (e : EReal) ≤ rowScale xr := by
    unfold rowScale; rw [heq]; exact le_max_left _ _
  have h2 : rowScale xr < ⊤ := by
    unfold rowScale; rw [heq]; exact max_lt (EReal.coe_lt_top _) (rowAbsMax_lt_top xr hx)
  obtain ⟨c, hc, hceq⟩ := real_of_ge_lt_top h1 h2
  exact ⟨c, lt_of_lt_of_le he hc, hceq⟩

/-- The weight scale from a real sum is a positive real. -/
theorem wScale_real (s : EReal) (hs : ∃ r : ℝ, s = (r : EReal)) :
    ∃ m : ℝ, 0 < m ∧ wScale s = (m : EReal) := by
  obtain ⟨e, he, heq⟩ := eps_pos
  obtain ⟨r, rfl⟩ := hs
  have h1 : (e : EReal) ≤ wScale r := by
    unfold wScale; rw [heq]; exact le_max_left _ _
  have h2 : wScale r < ⊤ := by
    unfold wScale
    rw [heq, count_eq, Ideal.div_coe (by norm_num), ← EReal.coe_mul]
    exact max_lt (EReal.coe_lt_top _) (EReal.coe_lt_top _)
  obtain ⟨m, hm, hmeq⟩ := real_of_ge_lt_top h1 h2
  exact ⟨m, lt_of_lt_of_le he hm, hmeq⟩

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of absolute values of reals, accumulated from +0, is a real. -/
theorem sumAbs_real {ι : Type} [Fintype ι] (w : ι → EReal) (hw : ∀ i, ∃ r : ℝ, w i = (r : EReal)) :
    ∃ r : ℝ, zero + ∑ i, max (w i) (-(w i)) = (r : EReal) := by
  choose f hf using hw
  refine ⟨∑ i, max (f i) (-(f i)), ?_⟩
  rw [zero_eq, zero_add, coe_sum]
  refine Finset.sum_congr rfl (fun i _ => ?_)
  rw [hf i, ← EReal.coe_neg]
  exact (EReal.coe_strictMono.monotone.map_max).symm

/-! ### The law -/

/-- The two arrangements agree at an output element when the activation row is real and the weight sum is real. -/
theorem kernelOut_eq_refOut (xr wr : Fin 4096 → EReal) (s : EReal)
    (hx : ∀ k, ∃ r : ℝ, xr k = (r : EReal)) (hs : ∃ r : ℝ, s = (r : EReal)) :
    kernelOut xr wr (wScale s) = refOut xr wr (wScale s) := by
  obtain ⟨c, hc0, hc⟩ := rowScale_real xr hx
  obtain ⟨m, hm0, hm⟩ := wScale_real s hs
  choose q hq using quant_real xr
  choose t ht using fun k => tern_real (wr k) (wScale s)
  have hc' : c ≠ 0 := hc0.ne'
  have hm' : m ≠ 0 := hm0.ne'
  -- the kernel's side, as one real
  have hK : kernelOut xr wr (wScale s) = (((∑ k, q k * t k) * (c * (1 / 127) * m) : ℝ) : EReal) := by
    unfold kernelOut rowInvScale
    simp only [hq, ht]
    rw [hc, hm, qhi_eq, Ideal.div_coe (by norm_num)]
    simp only [← EReal.coe_mul, ← coe_sum]
  -- the reference's side, as one real
  have hR : refOut xr wr (wScale s)
      = (((∑ k, q k * (1 / (127 * (1 / c))) * t k) * (1 / (1 * (1 / m))) : ℝ) : EReal) := by
    unfold refOut
    simp only [hq, ht]
    rw [hc, hm, qhi_eq, tHi_eq_coe, Ideal.div_coe hc', Ideal.div_coe hm']
    simp only [← EReal.coe_mul]
    have h1 : (127 * (1 / c) : ℝ) ≠ 0 := by positivity
    have h2 : (1 * (1 / m) : ℝ) ≠ 0 := by positivity
    rw [Ideal.div_coe h2]
    simp only [Ideal.div_coe h1, ← EReal.coe_mul, ← coe_sum]
  rw [hK, hR, EReal.coe_eq_coe_iff, Finset.sum_mul, Finset.sum_mul]
  refine Finset.sum_congr rfl (fun k _ => ?_)
  field_simp

end Cert.BitLinear

end
-- ==== Proof.Finite.lean ====
/-
  The precondition read back. The printed predicate is `all (|x| < +∞) ∧ all (|w| < +∞)` over the extended reals,
  and the hypothesis is that it evaluates to the one-bit word 1. Then every entry of both arrays is a real number:
  the final `and` of two bits is 1 only if both are; an `and`-reduction over all axes from 1 is 1 only if every
  compared bit is 1; and `max a (−a) < ⊤` fails at both infinities (|⊥| = |⊤| = ⊤), so it leaves the reals.
-/
import proofs.«118460_j24962349924854_2_alg».proof.Pre_finite_inputs
import Idealize.ShloMosaic.PureOps.Ideal
import Idealize.ShloMosaic.Lib.ReduceAll
import Idealize.ShloMosaic.Lib.ValueIdx

noncomputable section

namespace Cert.BitLinear

open Idealize.ShloMosaic

/-- The f32 pattern `0x7F800000` is +∞. -/
theorem ofBits_posInf : Ideal.ofBits .f32 0x7F800000#32 = (⊤ : EReal) := by simp [Ideal.ofBits, Ideal.ieee]

/-- An extended real whose absolute value `max a (−a)` compares below +∞ is a real number: at `⊥` and at `⊤` the
    absolute value is `⊤`, which is not below `⊤`. -/
theorem real_of_abs_olt_posInf (a : EReal)
    (h : Ideal.cmp .olt (max a (-a)) (Ideal.ofBits .f32 0x7F800000#32) = 1#1) : ∃ r : ℝ, a = (r : EReal) := by
  rw [ofBits_posInf] at h
  unfold Ideal.cmp at h
  induction a using EReal.rec with
  | bot => simp at h
  | coe r => exact ⟨r, rfl⟩
  | top => simp at h

/-- One entry of `|x| < +∞`, for an array of any shape: the compared bit being 1 makes the entry real. -/
theorem real_of_finite_entry {S : Shape} (hb : (⟨0, ![]⟩ : Shape).BroadcastsInDim S ![]) (x : FVec Ideal S .f32)
    (i : S.Idx)
    (h : cmpf .olt (Host.absf x)
      (broadcastInDim S ![] hb (constant (F := Ideal) (⟨0, ![]⟩ : Shape) .f32 0x7F800000#32)) i = 1#1) :
    ∃ r : ℝ, x i = (r : EReal) :=
  real_of_abs_olt_posInf (x i) h

/-- The rank-0 shape has one index. -/
instance subsingleton_scalarIdx : Subsingleton Cert.Pre_finite_inputs.S_.Idx :=
  ⟨fun _ _ => funext fun d => d.elim0⟩

/-- Under the precondition every entry of both inputs is a real number. -/
theorem real_of_finite_inputs [Cert.Pre_finite_inputs.Facts]
    (x : FVec Ideal Cert.Pre_finite_inputs.S4x2048x4096 .f32) (w : FVec Ideal Cert.Pre_finite_inputs.S4096x4096 .f32)
    (h : Cert.Pre_finite_inputs.fn (F := Ideal) x w = fun _ => 1#1) :
    (∀ i, ∃ r : ℝ, x i = (r : EReal)) ∧ (∀ j, ∃ r : ℝ, w j = (r : EReal)) := by
  have h0 := congrFun h ValueIdx.ix0
  dsimp only [Cert.Pre_finite_inputs.fn] at h0
  obtain ⟨hx, hw⟩ := IntOp.andi_eq_one.1 h0
  exact ⟨fun i => real_of_finite_entry _ x i (Host.reduce_andi_all _ _ _ _ _ hx i),
    fun j => real_of_finite_entry _ w j (Host.reduce_andi_all _ _ _ _ _ hw j)⟩

end Cert.BitLinear
-- ==== Proof.lean ====
/-
  A BitLinear layer — per-row 8-bit activation quantisation, ternary weights, one matrix product — as three kernel
  regions, against the plain array formula, on the extended reals.

  Both programs quantise a row x to q = clip (rne (x · 127/c)) with c = max ε (max |x|), and a weight to
  t = clip (rne (w / mw)) with mw = max ε (mean |w|). The kernel multiplies the integer-valued arrays and applies ONE
  factor per row afterwards, (Σ_k q_k t_k) · ((c/127) · mw); the reference dequantises every entry first and divides the
  weight scale out at the end, (Σ_k (q_k / (127/c)) · t_k) / (1/mw). With every input entry a real number — which is the
  precondition — c and mw are positive reals, q and t are reals by their clipping, and the two are equal: a / (127/c)
  = a · c/127, the row's factor comes out of the finite sum, and X / (1/mw) = X · mw (Proof/Law.lean). At an infinite
  input the law fails, so the precondition is used.

  The frames of the two kernel programs are the generated ones; the reference's frame is its run with the result
  dropped. No operation was rewritten by the idealisation, so `preserves` holds trivially. For `algebraic` the kernel's
  run is taken with its result array named (Proof/KRun.lean), the result is read at an index through the three
  regions and the host operations between them (Proof/Region0–2.lean, Proof/Glue.lean), the reference's result is read
  at the same index (Proof/RefValue.lean), and the law joins them.
-/
import proofs.«118460_j24962349924854_2_alg».proof.Defs
import proofs.«118460_j24962349924854_2_alg».proof.Proof.Gen.Kernel
import proofs.«118460_j24962349924854_2_alg».proof.Proof.Gen.Kernel.Frame
import proofs.«118460_j24962349924854_2_alg».proof.Proof.Gen.KernelIdeal
import proofs.«118460_j24962349924854_2_alg».proof.Proof.Gen.KernelIdeal.Frame
import proofs.«118460_j24962349924854_2_alg».proof.Proof.Gen.ReferenceIdeal
import proofs.«118460_j24962349924854_2_alg».proof.Proof.Gen.Pre_finite_inputs
import proofs.«118460_j24962349924854_2_alg».proof.Proof.KRun
import proofs.«118460_j24962349924854_2_alg».proof.Proof.Glue
import proofs.«118460_j24962349924854_2_alg».proof.Proof.RefRun
import proofs.«118460_j24962349924854_2_alg».proof.Proof.RefRead
import proofs.«118460_j24962349924854_2_alg».proof.Proof.RefValue
import proofs.«118460_j24962349924854_2_alg».proof.Proof.Law
import proofs.«118460_j24962349924854_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- From memories agreeing on the two inputs, every entry of which is real, both programs end with the same result
    array: at (a, b, o) the kernel's is `kernelOut` and the reference's `refOut` of the same two rows and weight scale. -/
theorem algebraic : Cert.algebraic_KernelIdeal_ReferenceIdeal := by
  intro m ρ m' ρ' hpre hagree
  refine ⟨fun c => Cert.KernelIdeal.Gen.W9 m ρ c (Proc.devRef .tc Cert.KernelIdeal.main_v12),
    Cert.KernelIdeal.Hand.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v23_eq, (hagree c).1, (hagree c).2]
  obtain ⟨hx, hw⟩ := Cert.BitLinear.real_of_finite_inputs _ _ (hpre c)
  funext i
  obtain ⟨a, b, o, rfl⟩ : ∃ (a : Fin 4) (b : Fin 2048) (o : Fin 4096), i = ix3 a b o := ⟨i 0, i 1, i 2, eq_ix3 i⟩
  refine (Cert.ReferenceIdeal.RefValue.ref_apply _ _ a b o).trans ?_
  refine Eq.trans ?_ (Cert.KernelIdeal.Hand.result_apply m ρ c a b o).symm
  exact (Cert.BitLinear.kernelOut_eq_refOut _ _ _ (fun k => hx _) (Cert.BitLinear.sumAbs_real _ hw)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
